-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S16384x2048 .f32) (main_arg1 : FVec F S64x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S16384x2048 : Shape := ⟨2, ![16384, 2048]⟩
abbrev S64x2048 : Shape := ⟨2, ![64, 2048]⟩
abbrev S64x16384 : Shape := ⟨2, ![64, 16384]⟩
abbrev S1024x2048 : Shape := ⟨2, ![1024, 2048]⟩
abbrev S64x1024 : Shape := ⟨2, ![64, 1024]⟩
abbrev S1024 : Shape := ⟨1, ![1024]⟩
abbrev S1x1024 : Shape := ⟨2, ![1, 1024]⟩
abbrev S16384x64 : Shape := ⟨2, ![16384, 64]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64x16384, .f32⟩
  | .hbm, ⟨3, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S64x1024, .f32⟩
  | .local _ .vmem, ⟨4, _⟩ => ⟨S64x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  reduces_S64x1024_S1024 : S64x1024.Reduces [0] S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  transposes_S64x16384_S16384x64_1_0 : S64x16384.Transposes [1, 0] S16384x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x16384.size a
  hwx0_2 : ∀ i : grid0.Coords, EltTy.bits .f32 = 32 ∨ (Rect.block (s := S64x16384) S64x1024.size (cc0_transform_2 i) (hinb0_2 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S64x2048_S2048x64_1_0 : S64x2048.Transposes [1, 0] S2048x64
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.RowSoftmax.lean ====
/-
  The routing probabilities of ONE token, over the extended reals.

  A token is a row `xr : Fin 2048 → EReal` of the activations; the router's weights are a `64 × 2048` array `w`, one row per
  expert. The logit of expert `e` is the inner product `∑ k, xr k * w (e, k)`; the probabilities are the softmax of the 64
  logits, written the way both programs compute it: subtract the largest logit (the fold of `max` from `-∞`), exponentiate,
  and divide by the sum of the 64 exponentials. Every quantity depends on the token's own row only, which is why a block
  of 1024 tokens and the whole array of 16384 tokens are described by the same four definitions.

  Two small laws are all the algebra the certificate needs: the order of the two factors inside the inner product does not
  matter (`logit_comm`), and taking `max` with the fold's own starting value once more changes nothing (`max_start_fold`).
  Neither needs a finite input: `*` commutes on all of `[-∞, +∞]`, and the fold is at least its starting value.
-/
import Idealize.ShloMosaic.PureOps.Ideal.Laws
import Idealize.ShloMosaic.Lib.ValueIdx

noncomputable section

namespace Cert.Router

open Idealize.ShloMosaic Idealize.ShloMosaic.ValueIdx

/-- The weights' shape: 64 experts, 2048 features. -/
abbrev WShape : Shape := ⟨2, ![64, 2048]⟩

/-- The value the two maxima start from: the f32 pattern of `-∞`. -/
abbrev negInf : EReal := Ideal.ofBits .f32 0xFF800000#32

/-- Expert `e`'s logit for the token row `xr`: the inner product of the row with the expert's weights. -/
def logit (xr : Fin 2048 → EReal) (w : WShape.Idx → EReal) (e : Fin 64) : EReal :=
  ∑ k : Fin 2048, xr k * w (ix2 e k)

/-- The largest of the token's 64 logits (from `-∞`). -/
def rowMax (xr : Fin 2048 → EReal) (w : WShape.Idx → EReal) : EReal :=
  (Finset.univ : Finset (Fin 64)).fold max negInf (logit xr w)

/-- The exponential of a logit shifted by the largest one. -/
def expShift (xr : Fin 2048 → EReal) (w : WShape.Idx → EReal) (e : Fin 64) : EReal :=
  Ideal.exp (logit xr w e - rowMax xr w)

/-- The routing probability of expert `e`: its shifted exponential over the sum of all 64. -/
def prob (xr : Fin 2048 → EReal) (w : WShape.Idx → EReal) (e : Fin 64) : EReal :=
  Ideal.div (expShift xr w e) (∑ e' : Fin 64, expShift xr w e')

/-- Token `n`'s row of an activation array of `N` tokens. -/
abbrev tokenRow {N : ℕ} (x : (⟨2, ![N, 2048]⟩ : Shape).Idx → EReal) (n : Fin N) : Fin 2048 → EReal :=
  fun k => x (ix2 n k)

/-- The whole result: entry `(n, e)` is token `n`'s probability of expert `e`. -/
def probs (x : (⟨2, ![16384, 2048]⟩ : Shape).Idx → EReal) (w : WShape.Idx → EReal) :
    (⟨2, ![16384, 64]⟩ : Shape).Idx → EReal :=
  fun i => prob (tokenRow x (i 0)) w (i 1)

theorem probs_ix2 (x : (⟨2, ![16384, 2048]⟩ : Shape).Idx → EReal) (w : WShape.Idx → EReal) (n : Fin 16384) (e : Fin 64) :
    probs x w (ix2 n e) = prob (tokenRow x n) w e := rfl

/-- The same table with experts down the rows and tokens along the columns. -/
def probsT (x : (⟨2, ![16384, 2048]⟩ : Shape).Idx → EReal) (w : WShape.Idx → EReal) :
    (⟨2, ![64, 16384]⟩ : Shape).Idx → EReal :=
  fun i => prob (tokenRow x (i 1)) w (i 0)

theorem probsT_ix2 (x : (⟨2, ![16384, 2048]⟩ : Shape).Idx → EReal) (w : WShape.Idx → EReal) (e : Fin 64) (n : Fin 16384) :
    probsT x w (ix2 e n) = prob (tokenRow x n) w e := rfl

/-- The inner product with the factors in the other order is the same logit. -/
theorem logit_comm (xr : Fin 2048 → EReal) (w : WShape.Idx → EReal) (e : Fin 64) :
    (∑ k : Fin 2048, w (ix2 e k) * xr k) = logit xr w e :=
  Finset.sum_congr rfl fun k _ => mul_comm _ _

/-- A fold of `max` is at least the value it starts from, so one more `max` with that value is absorbed. -/
theorem max_start_fold {ι : Type} (s : Finset ι) (b : EReal) (f : ι → EReal) :
    max b (s.fold max b f) = s.fold max b f :=
  max_eq_right ((Finset.le_fold_max b).mpr (Or.inl le_rfl))

end Cert.Router

end
-- ==== Proof.RefProbs.lean ====
/-
  The reference computes the table of routing probabilities.

  Its sixteen host operations are read one at a time by the generated module; here each stage is read at an index and
  recognised as a quantity of ONE token's row softmax: the `dot_general` against the transposed weights at `(n, e)` is
  expert `e`'s logit for token `n`; the `reduce max` from `-∞` over the experts, followed by one more `maximum` with a
  broadcast `-∞`, is the largest logit (the extra `max` with the fold's starting value is absorbed); the keepdims
  broadcasts only carry the token's coordinate; the `reduce add` from `0` is the sum of the 64 exponentials.
-/
import proofs.«147017_g5935644803098_cont_9to1_m_954_24_alg».proof.Proof.Gen.ReferenceIdeal.Read
import proofs.«147017_g5935644803098_cont_9to1_m_954_24_alg».proof.Proof.RowSoftmax
import Idealize.ShloMosaic.PureOps.Reduce

noncomputable section

namespace Cert.Router.Ref

open Cert.ReferenceIdeal Cert.ReferenceIdeal.Gen Cert.ReferenceIdeal.Read Idealize.ShloMosaic Idealize.ShloMosaic.ValueIdx Cert.Router

variable (x0 : (⟨S16384x2048, .f32⟩ : BufTy).Contents (Elt Ideal)) (x1 : (⟨S64x2048, .f32⟩ : BufTy).Contents (Elt Ideal))

/-- The matrix product at `(n, e)`: the inner product of token `n`'s row with expert `e`'s weights. -/
theorem logit_ref (n : Fin 16384) (e : Fin 64) :
    val_main_v1 (F := Ideal) x0 x1 (ix2 n e) = logit (tokenRow x0 n) x1 e := by
  rw [val_main_v1_apply]
  unfold logit
  refine Finset.sum_congr rfl fun k _ => ?_
  rw [val_main_v0_apply]
  have hl : lidx_main_v1 (ix2 n e) k = ix2 n k :=
    funext fun a => Fin.ext (by match a with | ⟨0, _⟩ => rfl | ⟨1, _⟩ => rfl)
  have hr : idx_main_v0 (ridx_main_v1 (ix2 n e) k) = ix2 e k :=
    funext fun a => Fin.ext (by match a with | ⟨0, _⟩ => rfl | ⟨1, _⟩ => rfl)
  rw [hl, hr]

/-- The maximum over the experts, and the `maximum` with `-∞` after it: the token's largest logit. -/
theorem max_ref (n : Fin 16384) :
    val_main_v4 (F := Ideal) x0 x1 (ix1 n) = rowMax (tokenRow x0 n) x1 := by
  have hR : S16384x64.Reduces [1] S16384 := by decide
  have h2 : val_main_v2 (F := Ideal) x0 x1 (ix1 n) = rowMax (tokenRow x0 n) x1 := by
    unfold val_main_v2
    refine (Host.reduce_eq_fold_single (α := EReal) (s := S16384x64) (t := S16384) (u := S_) (a := 1)
      (FloatOps.maximumf (F := Ideal) (φ := .f32)) (val_main_v1 (F := Ideal) x0 x1) (val_main_cst (F := Ideal))
      reducesTo_S16384x64_S16384_d1 hR h_S_ (ix1 n)).trans ?_
    unfold rowMax
    refine Finset.fold_congr fun e _ => ?_
    have hl : hR.lift (ix1 n) e = ix2 n e :=
      funext fun a => Fin.ext (by match a with | ⟨0, _⟩ => rfl | ⟨1, _⟩ => rfl)
    rw [Function.comp_apply, hl]
    exact logit_ref x0 x1 n e
  rw [val_main_v4_apply, val_main_v3_apply, val_main_cst_0_apply, h2]
  exact max_start_fold _ _ _

/-- The exponential of the shifted logit at `(n, e)`. -/
theorem exp_ref (n : Fin 16384) (e : Fin 64) :
    val_main_v8 (F := Ideal) x0 x1 (ix2 n e) = expShift (tokenRow x0 n) x1 e := by
  have hi : idx_main_v5 (idx_main_v6 (ix2 n e)) = ix1 n :=
    funext fun a => Fin.ext (by match a with | ⟨0, _⟩ => rfl)
  rw [val_main_v8_apply, val_main_v7_apply, val_main_v6_apply, val_main_v5_apply, hi, max_ref, logit_ref]
  rfl

/-- The sum over the experts from `0`: the sum of the token's 64 exponentials. -/
theorem sum_ref (n : Fin 16384) :
    val_main_v9 (F := Ideal) x0 x1 (ix1 n) = ∑ e : Fin 64, expShift (tokenRow x0 n) x1 e := by
  rw [val_main_v9_apply, val_main_cst_1_apply]
  show Ideal.ofBits .f32 0x00000000#32 + _ = _
  rw [Ideal.ofBits_zero_f32, zero_add]
  refine Finset.sum_congr rfl fun e _ => ?_
  have hi : idx_main_v9 (ix1 n) e = ix2 n e :=
    funext fun a => Fin.ext (by match a with | ⟨0, _⟩ => rfl | ⟨1, _⟩ => rfl)
  rw [hi, exp_ref]

/-- The reference's result is the table of routing probabilities. -/
theorem probs_ref : val_main_v12 (F := Ideal) x0 x1 = probs x0 x1 := by
  funext i
  obtain ⟨n, e, rfl⟩ : ∃ (n : Fin 16384) (e : Fin 64), i = ix2 n e := ⟨i 0, i 1, eq_ix2 i⟩
  have hi : idx_main_v10 (idx_main_v11 (ix2 n e)) = ix1 n :=
    funext fun a => Fin.ext (by match a with | ⟨0, _⟩ => rfl)
  rw [val_main_v12_apply, val_main_v11_apply, val_main_v10_apply, hi, sum_ref, exp_ref, probs_ix2]
  rfl

end Cert.Router.Ref

end
-- ==== Proof.BlockProbs.lean ====
/-
  What the kernel body stores, entry by entry: a block of routing probabilities, experts down the rows.

  The body loads a block of 1024 token rows `x0` and the whole weight array `x1`, multiplies the weights by the tokens
  transposed — entry `(e, r)` of the product is `∑ k, x1 (e, k) * x0 (r, k)`, expert `e`'s logit for the block's token `r`,
  the two factors in the other order than the reference writes them —, and normalises every COLUMN: the column's maximum
  from `-∞` is cast to one row and broadcast down the 64 rows, subtracted, exponentiated, and the column's sum, again one
  row broadcast down, divides. Each stage is read at `(e, r)` for an arbitrary logits block `L` first; the matrix product is
  put in last. The change of format in front of the product is the identity on extended reals.
-/
import proofs.«147017_g5935644803098_cont_9to1_m_954_24_alg».proof.Proof.Gen.KernelIdeal.Skeleton
import proofs.«147017_g5935644803098_cont_9to1_m_954_24_alg».proof.Proof.RowSoftmax
import Idealize.ShloMosaic.Lib.ValueLayout

noncomputable section

namespace Cert.Router.Block

open Cert.KernelIdeal Cert.KernelIdeal.Gen Idealize.ShloMosaic Idealize.ShloMosaic.ValueIdx Cert.Router

/-! ## A column-wise softmax of any logits block -/

section Columns

variable (L : FVec Ideal S64x1024 .f32)

/-- Column `r` of a block: its 64 entries, one per expert. -/
abbrev col (r : Fin 1024) : Fin 64 → EReal := fun e => L (ix2 e r)

/-- The column maxima as one row, broadcast down the rows. -/
abbrev shiftOf : FVec Ideal S64x1024 .f32 :=
  broadcastTo S64x1024 (shapeCast S1x1024 (multiReduction .maximumf [0] S1024 L 0xFF800000#32 reduces_S64x1024_S1024 (.inl rfl) rfl)
    shapeCasts_S1024_S1x1024) broadcasts_S1x1024_S64x1024

/-- The exponentials of the entries shifted by their column's maximum. -/
abbrev expOf : FVec Ideal S64x1024 .f32 := exp (subf L (shiftOf L))

/-- The column sums of those exponentials as one row, broadcast down the rows. -/
abbrev normOf : FVec Ideal S64x1024 .f32 :=
  broadcastTo S64x1024 (shapeCast S1x1024 (multiReduction .add [0] S1024 (expOf L) 0x00000000#32 reduces_S64x1024_S1024 (.inl rfl) rfl)
    shapeCasts_S1024_S1x1024) broadcasts_S1x1024_S64x1024

/-- A vector of 1024 column values cast to one row and broadcast down 64 rows reads, at `(e, r)`, the value of column `r`. -/
theorem rowDown_at (v : FVec Ideal S1024 .f32) (e : Fin 64) (r : Fin 1024) :
    broadcastTo S64x1024 (shapeCast S1x1024 v shapeCasts_S1024_S1x1024) broadcasts_S1x1024_S64x1024 (ix2 e r) = v (ix1 r) :=
  (broadcastTo_1b_ab_apply (shapeCast S1x1024 v shapeCasts_S1024_S1x1024) broadcasts_S1x1024_S64x1024 e r).trans
    (shapeCast_a_1a_apply v shapeCasts_S1024_S1x1024 0 r)

/-- The index the reduction over the rows inserts expert `e` at, over column `r`, is `(e, r)`. -/
theorem lift_col (r : Fin 1024) (e : Fin 64) : reduces_S64x1024_S1024.lift (ix1 r) e = ix2 e r :=
  funext fun a => Fin.ext (by match a with | ⟨0, _⟩ => rfl | ⟨1, _⟩ => rfl)

/-- The shift at `(e, r)` is the largest entry of column `r` (from `-∞`). -/
theorem shiftOf_at (e : Fin 64) (r : Fin 1024) :
    shiftOf L (ix2 e r) = (Finset.univ : Finset (Fin 64)).fold max negInf (col L r) := by
  refine (rowDown_at _ e r).trans ?_
  refine (Ideal.multiReduction_maximumf_single L 0xFF800000#32 reduces_S64x1024_S1024 (.inl rfl) rfl (ix1 r)).trans ?_
  exact Finset.fold_congr fun e' _ => congrArg L (lift_col r e')

/-- The exponential at `(e, r)`. -/
theorem expOf_at (e : Fin 64) (r : Fin 1024) :
    expOf L (ix2 e r) = Ideal.exp (col L r e - (Finset.univ : Finset (Fin 64)).fold max negInf (col L r)) := by
  show Ideal.exp (L (ix2 e r) - shiftOf L (ix2 e r)) = _
  rw [shiftOf_at]

/-- The normaliser at `(e, r)`: the sum of column `r`'s exponentials. -/
theorem normOf_at (e : Fin 64) (r : Fin 1024) :
    normOf L (ix2 e r)
      = ∑ e' : Fin 64, Ideal.exp (col L r e' - (Finset.univ : Finset (Fin 64)).fold max negInf (col L r)) := by
  refine (rowDown_at _ e r).trans ?_
  refine (Ideal.multiReduction_add_single (expOf L) 0x00000000#32 reduces_S64x1024_S1024 (.inl rfl) rfl (ix1 r)).trans ?_
  exact Finset.sum_congr rfl fun e' _ => (congrArg (expOf L) (lift_col r e')).trans (expOf_at L e' r)

end Columns

/-! ## The logits block -/

variable (x0 : Vec Ideal S1024x2048 .f32) (x1 : Vec Ideal S64x2048 .f32)

/-- The weights times the block's tokens transposed, into a zero accumulator. -/
abbrev logitsBlock : FVec Ideal S64x1024 .f32 :=
  matmul dot_S64x2048_S1024x2048_S64x1024_1_1_0_0_n_n none (truncf .bf16 x1 bitsLt_bf16_f32) (truncf .bf16 x0 bitsLt_bf16_f32)
    (constant S64x1024 .f32 0x00000000#32)

theorem lhs_0 (j : S64x1024.Idx) (q : dot_S64x2048_S1024x2048_S64x1024_1_1_0_0_n_n.contr.Idx) :
    (dot_S64x2048_S1024x2048_S64x1024_1_1_0_0_n_n.lhsIdx j q 0).val = (j 0).val := by
  unfold DotDims.lhsIdx
  rw [dif_neg (show ¬(0 : Fin S64x2048.rank) ∈ dot_S64x2048_S1024x2048_S64x1024_1_1_0_0_n_n.lhsBatch by decide),
    dif_pos (show (0 : Fin S64x2048.rank) ∈ dot_S64x2048_S1024x2048_S64x1024_1_1_0_0_n_n.lhsNonContracting by decide)]
  rfl

theorem rhs_0 (j : S64x1024.Idx) (q : dot_S64x2048_S1024x2048_S64x1024_1_1_0_0_n_n.contr.Idx) :
    (dot_S64x2048_S1024x2048_S64x1024_1_1_0_0_n_n.rhsIdx j q 0).val = (j 1).val := by
  unfold DotDims.rhsIdx
  rw [dif_neg (show ¬(0 : Fin S1024x2048.rank) ∈ dot_S64x2048_S1024x2048_S64x1024_1_1_0_0_n_n.rhsBatch by decide),
    dif_pos (show (0 : Fin S1024x2048.rank) ∈ dot_S64x2048_S1024x2048_S64x1024_1_1_0_0_n_n.rhsNonContracting by decide)]
  rfl

/-- Entry `(e, r)` of the product is expert `e`'s logit for the block's token `r`. -/
theorem logitsBlock_at (e : Fin 64) (r : Fin 1024) :
    logitsBlock x0 x1 (ix2 e r) = logit (tokenRow x0 r) x1 e := by
  refine (Ideal.matmul_constant_zero_apply dot_S64x2048_S1024x2048_S64x1024_1_1_0_0_n_n none
    (truncf .bf16 x1 bitsLt_bf16_f32) (truncf .bf16 x0 bitsLt_bf16_f32) (ix2 e r)).trans ?_
  rw [← Equiv.sum_comp (contrEquiv1 dot_S64x2048_S1024x2048_S64x1024_1_1_0_0_n_n 2048 rfl rfl).symm, ← logit_comm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 e r)
      ((contrEquiv1 dot_S64x2048_S1024x2048_S64x1024_1_1_0_0_n_n 2048 rfl rfl).symm k) = ix2 e k :=
    funext fun a => Fin.ext (by
      match a with
      | ⟨0, _⟩ => exact lhs_0 _ _
      | ⟨1, _⟩ => exact (dot_S64x2048_S1024x2048_S64x1024_1_1_0_0_n_n.lhsIdx_val_of_single rfl _ _).trans hk)
  have er : dot_S64x2048_S1024x2048_S64x1024_1_1_0_0_n_n.rhsIdx (ix2 e r)
      ((contrEquiv1 dot_S64x2048_S1024x2048_S64x1024_1_1_0_0_n_n 2048 rfl rfl).symm k) = ix2 r k :=
    funext fun a => Fin.ext (by
      match a with
      | ⟨0, _⟩ => exact rhs_0 _ _
      | ⟨1, _⟩ => exact (dot_S64x2048_S1024x2048_S64x1024_1_1_0_0_n_n.rhsIdx_val_of_single rfl _ _).trans hk)
  rw [el, er]
  rfl

/-- Column `r` of the logits block is the 64 logits of the block's token `r`. -/
theorem col_logitsBlock (r : Fin 1024) : col (logitsBlock x0 x1) r = logit (tokenRow x0 r) x1 :=
  funext fun e => logitsBlock_at x0 x1 e r

/-! ## The stored value -/

/-- The value the body stores is the column-wise softmax of the logits block. -/
theorem pay_eq : k0_pay1 x0 x1 = divf (expOf (logitsBlock x0 x1)) (normOf (logitsBlock x0 x1)) := rfl

/-- Entry `(e, r)` of the stored block: the probability of expert `e` for the block's token `r`. -/
theorem pay_at (e : Fin 64) (r : Fin 1024) : k0_pay1 x0 x1 (ix2 e r) = prob (tokenRow x0 r) x1 e := by
  rw [pay_eq]
  show Ideal.div (expOf (logitsBlock x0 x1) (ix2 e r)) (normOf (logitsBlock x0 x1) (ix2 e r)) = _
  rw [expOf_at, normOf_at, col_logitsBlock]
  rfl

end Cert.Router.Block

end
-- ==== Proof.KernelProbs.lean ====
/-
  The kernel's program ends with the table of routing probabilities.

  Grid point `t` stages token rows `1024 t … 1024 t + 1023` of the activations and the whole weight array, and writes back
  a `64 × 1024` block into columns `1024 t … 1024 t + 1023` of a `64 × 16384` array. By the block lemma, entry `(e, r)` of
  that block is the probability of expert `e` for token `1024 t + r`: the block is the restriction of ONE function of the
  whole arrays, the probability table with experts down the rows. The sixteen blocks tile the array (column `n` lies in
  block `n / 1024`), so after the region the array IS that table; the host's transpose after the region turns it into the
  table with tokens down the rows, which is what the reference computes.
-/
import proofs.«147017_g5935644803098_cont_9to1_m_954_24_alg».proof.Proof.Gen.KernelIdeal.Frame
import proofs.«147017_g5935644803098_cont_9to1_m_954_24_alg».proof.Proof.BlockProbs
import Idealize.ShloMosaic.Lib.Pipeline.Value
import Idealize.ShloMosaic.Lib.ValueLayout
import Idealize.ShloMosaic.Lib.StableHlo.Run

set_option maxRecDepth 16384

noncomputable section

namespace Cert.Router.Kernel

open Cert.KernelIdeal Cert.KernelIdeal.Gen Idealize.ShloMosaic Idealize.ShloMosaic.TcCoe Idealize.SL.Sem
open Idealize.ShloMosaic.ValueIdx Idealize.ShloMosaic.StableHlo Cert.Router
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the token window moves with the output's column block, every other block
    index is zero, and there are sixteen column blocks. -/
theorem idx_facts : ∀ t : Fin cfg0.N, win0_0.index t (0 : Fin 2) = win0_2.index t (1 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) ≤ 15 :=
  (by decide +kernel : ∀ t : Fin grid0.N, _)

/-- Every column block is some point's. -/
theorem idx_onto : ∀ q : Fin 16, ∃ t : Fin cfg0.N, win0_2.index t = ![0, q.val] :=
  (by decide +kernel : ∀ q : Fin 16, ∃ t : Fin grid0.N, win0_2.index t = ![0, q.val])

/-- One stored entry, for loaded blocks that are the rows `1024 q …` of `X` and the whole of `W`: the entry of the
    expert-major probability table at the same expert and at token `1024 q + r`. -/
theorem block_entry (x0 : Vec Ideal S1024x2048 .f32) (x1 : Vec Ideal S64x2048 .f32)
    (X : S16384x2048.Idx → EReal) (W : S64x2048.Idx → EReal) (q : ℕ) (hq : q ≤ 15)
    (h0 : ∀ (r : Fin 1024) (k : Fin 2048), x0 (ix2 r k) = X (ix2 (⟨q * 1024 + r.val, by omega⟩ : Fin 16384) k))
    (h1 : x1 = W) (j : S64x1024.Idx) (i : S64x16384.Idx)
    (hi0 : (i 0).val = (j 0).val) (hi1 : (i 1).val = q * 1024 + (j 1).val) :
    k0_pay1 x0 x1 j = probsT X W i := by
  obtain ⟨e, r, rfl⟩ : ∃ (e : Fin 64) (r : Fin 1024), j = ix2 e r := ⟨j 0, j 1, eq_ix2 j⟩
  have hi : i = ix2 e (⟨q * 1024 + r.val, by omega⟩ : Fin 16384) :=
    funext fun a => Fin.ext (by match a with | ⟨0, _⟩ => exact hi0 | ⟨1, _⟩ => exact hi1)
  rw [Block.pay_at, hi, probsT_ix2, h1]
  exact congrArg (fun xr => prob xr W e) (funext fun k => h0 r k)

/-- WHAT POINT `t` WRITES BACK is block `t` of the expert-major probability table of the arrays as the region finds them. -/
theorem flushed_eq (c : Dev nD) (t : Fin cfg0.N) :
    (dats m 0 c).flushed 2 t
      = ((cfg0.win 2).blk t).view.read (Elt Ideal) (probsT (V m c main_arg0) (V m c main_arg1)) := by
  show (cfg0.win 2).cut (grid0.coords t) ((dats m 0 c).after 2 t) = _
  rw [after0_2]
  unfold out0_2
  rw [View.canon_unit_zero hz]
  simp only [View.ld_unit_zero (S := S1024x2048) hz, View.ld_unit_zero (S := S64x2048) hz]
  obtain ⟨e0, e1, e2, e3, e4, e5⟩ := idx_facts t
  funext j
  show k0_pay1 (iblk m c 0 t) (iblk m c 1 t) j
    = probsT (V m c main_arg0) (V m c main_arg1) (((cfg0.win 2).blk t).view.emb j)
  refine block_entry (iblk m c 0 t) (iblk m c 1 t) (V m c main_arg0) (V m c main_arg1) (win0_2.index t (1 : Fin 2)) e5
    ?_ ?_ j (((cfg0.win 2).blk t).view.emb j) ?_ ?_
  · intro r k
    have hemb : ((cfg0.win 0).blk t).view.emb (ix2 r k)
        = ix2 (⟨win0_2.index t (1 : Fin 2) * 1024 + r.val, by omega⟩ : Fin 16384) k := by
      funext a; apply Fin.ext
      match a with
      | ⟨0, _⟩ => show win0_0.index t (0 : Fin 2) * 1024 + 1 * r.val = win0_2.index t (1 : Fin 2) * 1024 + r.val; omega
      | ⟨1, _⟩ => show win0_0.index t (1 : Fin 2) * 2048 + 1 * k.val = k.val; omega
    show V m c main_arg0 (((cfg0.win 0).blk t).view.emb (ix2 r k)) = _
    rw [hemb]
  · funext y
    have hemb : ((cfg0.win 1).blk t).view.emb y = y := by
      funext a; apply Fin.ext
      match a with
      | ⟨0, _⟩ => show win0_1.index t (0 : Fin 2) * 64 + 1 * (y 0).val = (y 0).val; omega
      | ⟨1, _⟩ => show win0_1.index t (1 : Fin 2) * 2048 + 1 * (y 1).val = (y 1).val; omega
    show V m c main_arg1 (((cfg0.win 1).blk t).view.emb y) = _
    rw [hemb]
  · show win0_2.index t (0 : Fin 2) * 64 + 1 * (j 0).val = (j 0).val; omega
  · show win0_2.index t (1 : Fin 2) * 1024 + 1 * (j 1).val = win0_2.index t (1 : Fin 2) * 1024 + (j 1).val; omega

/-- An index of the array is in point `t`'s block iff each coordinate is in the block's range on its axis. -/
theorem mem_blk (t : Fin cfg0.N) (i : S64x16384.Idx) :
    i ∈ ((cfg0.win 2).blk t).view.set ↔ ∀ a : Fin 2, win0_2.index t a * S64x1024.size a ≤ (i a).val
      ∧ (i a).val < win0_2.index t a * S64x1024.size a + S64x1024.size a := by
  show i ∈ ((View.whole main_v0).slice (win0_2.rect t)).set ↔ _
  rw [View.set_slice_whole, Rect.mem_set_unit]
  exact Iff.rfl

/-- The blocks tile the array: column `n` lies in the block of point `n / 1024`. -/
theorem cover (i : S64x16384.Idx) :
    ∃ t : Fin cfg0.N, (cfg0.win 2).flush t = true ∧ i ∈ ((cfg0.win 2).blk t).view.set := by
  have hi0 : (i 0).val < 64 := (i 0).isLt
  have hi1 : (i 1).val < 16384 := (i 1).isLt
  obtain ⟨t, ht⟩ := idx_onto ⟨(i 1).val / 1024, by omega⟩
  have q0 : win0_2.index t (0 : Fin 2) = 0 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 1024 ≤ (i 1).val ∧ (i 1).val < win0_2.index t (1 : Fin 2) * 1024 + 1024; omega

/-- THE ARRAY after the region: the expert-major probability table of the argument arrays. -/
theorem final (c : Dev nD) : (dats m 0 c).arrAt 2 cfg0.N
    = probsT (m ((c : Thread nD τ).loc main_arg0)) (m ((c : Thread nD τ).loc main_arg1)) :=
  (dats m 0 c).arrAt_eq_of_cover 2 (probsT (V m c main_arg0) (V m c main_arg1)) (fun t _ => flushed_eq m c t) cover

/-- Transposing the expert-major table gives the token-major one. -/
theorem transpose_probsT (x : S16384x2048.Idx → EReal) (w : S64x2048.Idx → EReal) :
    transpose S16384x64 [1, 0] (probsT x w) transposes_S64x16384_S16384x64_1_0 = probs x w := by
  funext i
  obtain ⟨n, e, rfl⟩ : ∃ (n : Fin 16384) (e : Fin 64), i = ix2 n e := ⟨i 0, i 1, eq_ix2 i⟩
  exact transpose_ix2_apply (probsT x w) transposes_S64x16384_S16384x64_1_0 n e

/-- The result buffer after the host line that follows the region. -/
theorem tail_eq (c : Dev nD) :
    Pipeline.afterTail₀ cfgs (dats m) 0 (V0 m) [hostOps1] c main_v1
      = probs (m ((c : Thread nD τ).loc main_arg0)) (m ((c : Thread nD τ).loc main_arg1)) := by
  unfold Pipeline.afterTail₀
  show StableHlo.after hostOps1 _ (Proc.devRef .tc main_v1) = _
  after_results
  rw [Pipeline.withArrays_arr spec0 launch0.win.arr_inj c _ _ 2, final m c]
  exact transpose_probsT _ _

/-- The kernel's program runs, ends with the probability table in its result and leaves its arguments as they were. -/
theorem run : θ_run defs (onTc (τ := τ) (main (F := Ideal))) ⟨m, fun _ => 0, ρ⟩ fun r => ∀ c : Dev nD,
      r.2.mem ((c.tc : Thread nD τ).loc main_v1)
        = probs (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Router.Kernel

end
-- ==== Proof.lean ====
/-
  A mixture-of-experts router: `softmax (inputs · Wᵀ)` over 64 experts for 16384 tokens of 2048 features.

  The kernel walks the tokens in 16 blocks of 1024. For each block it multiplies the weights by the block transposed, so that
  experts run down the rows and tokens along the columns, normalises every column (subtract the column's maximum,
  exponentiate, divide by the column's sum) and writes the `64 × 1024` block of a `64 × 16384` array; the host then
  transposes that array. The reference multiplies the activations by the transposed weights and normalises every row of
  the `16384 × 64` product the same way, with one more `maximum` against `-∞` after its row maximum.

  Over the extended reals both results are ONE function of the two argument arrays: entry `(n, e)` is the routing
  probability of expert `e` for token `n`, a function of row `n` of the activations and of the weights alone
  (Proof/RowSoftmax.lean). The reference is that function stage by stage (Proof/RefProbs.lean); the kernel's stored block
  is that function entry by entry (Proof/BlockProbs.lean), the sixteen blocks tile the array and the transpose swaps the
  two coordinates (Proof/KernelProbs.lean). The only laws used are that a product of two extended reals does not depend on
  the order of its factors and that a maximum taken from `-∞` absorbs one more `-∞`; neither needs the inputs to be finite,
  so the precondition is never opened. No operation of the kernel is replaced on the way to its reading over the extended
  reals, so `preserves` has nothing to state.
-/
import proofs.«147017_g5935644803098_cont_9to1_m_954_24_alg».proof.Defs
import proofs.«147017_g5935644803098_cont_9to1_m_954_24_alg».proof.Proof.Gen.Kernel
import proofs.«147017_g5935644803098_cont_9to1_m_954_24_alg».proof.Proof.Gen.Kernel.Frame
import proofs.«147017_g5935644803098_cont_9to1_m_954_24_alg».proof.Proof.Gen.KernelIdeal
import proofs.«147017_g5935644803098_cont_9to1_m_954_24_alg».proof.Proof.Gen.KernelIdeal.Frame
import proofs.«147017_g5935644803098_cont_9to1_m_954_24_alg».proof.Proof.Gen.ReferenceIdeal
import proofs.«147017_g5935644803098_cont_9to1_m_954_24_alg».proof.Proof.Gen.ReferenceIdeal.Run
import proofs.«147017_g5935644803098_cont_9to1_m_954_24_alg».proof.Proof.Gen.ReferenceIdeal.Read
import proofs.«147017_g5935644803098_cont_9to1_m_954_24_alg».proof.Proof.Gen.Pre_finite_inputs
import proofs.«147017_g5935644803098_cont_9to1_m_954_24_alg».proof.Proof.RefProbs
import proofs.«147017_g5935644803098_cont_9to1_m_954_24_alg».proof.Proof.KernelProbs
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the table of routing probabilities of the arrays they were given, and those arrays agree. -/
theorem algebraic : Cert.algebraic_KernelIdeal_ReferenceIdeal := by
  intro m ρ m' ρ' _ hagree
  refine ⟨fun c => Cert.Router.probs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Router.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Router.Ref.probs_ref, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
